-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩
abbrev S50000 : Shape := ⟨1, ![50000]⟩
abbrev S800000 : Shape := ⟨1, ![800000]⟩
abbrev S1x800000 : Shape := ⟨2, ![1, 800000]⟩
abbrev S800000x1 : Shape := ⟨2, ![800000, 1]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S50000 : S_.BroadcastsInDim S50000 (![] : Fin 0 → Fin S50000.rank)
  bcast_S_S800000 : S_.BroadcastsInDim S800000 (![] : Fin 0 → Fin S800000.rank)
  slices_S2x800000_S1x800000_0_0 : S2x800000.Slices ![0, 0] S1x800000
  shapeCasts_S1x800000_S800000 : S1x800000.ShapeCasts S800000
  bcast_S800000_S800000x1_0 : S800000.BroadcastsInDim S800000x1 (![0] : Fin 1 → Fin S800000x1.rank)
  reducesTo_S50000_S_d0 : S50000.ReducesTo [0] S_
  scatter_S50000_S800000x1_S800000_n_0_0_1_wf : ScatterDims.WF S50000 S800000x1 S800000 [] [0] [0] 1

variable [Facts]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def fn_part1 {F : FTy → Type} [FloatOps F] (main_arg1 : IVec S2x800000 32) (main_v13 : IVec S_ 1) (main_v14 : IVec S50000 32) (main_v15 : IVec S800000 32) : IVec S_ 1 :=
  let main_v16 : IVec S1x800000 32 := (extractStridedSlice S1x800000 ![0, 0] · slices_S2x800000_S1x800000_0_0) main_arg1
  let main_v17 : IVec S800000 32 := shapeCast S800000 main_v16 shapeCasts_S1x800000_S800000
  let main_v18 : IVec S800000 32 := maxsi main_v15 main_v17
  let main_c_6 : IVec S_ 32 := constantI S_ 32 0#32
  let main_v19 : IVec S800000 32 := broadcastInDim S800000 ![] bcast_S_S800000 main_c_6
  let main_v20 : IVec S800000 1 := cmpi .slt main_v18 main_v19
  let main_c_7 : IVec S_ 32 := constantI S_ 32 50000#32
  let main_v21 : IVec S800000 32 := broadcastInDim S800000 ![] bcast_S_S800000 main_c_7
  let main_v22 : IVec S800000 32 := addi main_v18 main_v21
  let main_v23 : IVec S800000 32 := select main_v20 main_v22 main_v18
  let main_v24 : IVec S800000x1 32 := broadcastInDim S800000x1 ![0] bcast_S800000_S800000x1_0 main_v23
  let main_c_8 : IVec S_ 32 := constantI S_ 32 1#32
  let main_v25 : IVec S800000 32 := broadcastInDim S800000 ![] bcast_S_S800000 main_c_8
  let main_v26 : IVec S50000 32 := (fun x i u => Host.scatter scatter_S50000_S800000x1_S800000_n_0_0_1 IntOp.addi x i u) main_v14 main_v24 main_v25
  let main_c_9 : IVec S_ 32 := constantI S_ 32 0#32
  let main_v27 : IVec S50000 32 := broadcastInDim S50000 ![] bcast_S_S50000 main_c_9
  let main_v28 : IVec S50000 1 := cmpi .sgt main_v26 main_v27
  let main_c_10 : IVec S_ 1 := constantI S_ 1 1#1
  let main_v29 : IVec S_ 1 := (fun x v => Host.reduce IntOp.andi x v reducesTo_S50000_S_d0 h_S_) main_v28 main_c_10
  let main_v30 : IVec S_ 1 := andi main_v13 main_v29
  main_v30

def fn {F : FTy → Type} [FloatOps F] (main_arg0 : FVec F S50000x128 .f32) (main_arg1 : IVec S2x800000 32) (main_arg2 : FVec F S128x128 .f32) (main_arg3 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_c_4 : IVec S_ 32 := constantI S_ 32 0#32
  let main_v14 : IVec S50000 32 := broadcastInDim S50000 ![] bcast_S_S50000 main_c_4
  let main_c_5 : IVec S_ 32 := constantI S_ 32 0#32
  let main_v15 : IVec S800000 32 := broadcastInDim S800000 ![] bcast_S_S800000 main_c_5
  fn_part1 (F := F) main_arg1 main_v13 main_v14 main_v15
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S1x128 : Shape := ⟨2, ![1, 128]⟩
abbrev S50000x1 : Shape := ⟨2, ![50000, 1]⟩
abbrev S5000x128 : Shape := ⟨2, ![5000, 128]⟩
abbrev S5000x1 : Shape := ⟨2, ![5000, 1]⟩

abbrev nBuf : Space → Nat
  | .hbm => 45
  | .vmem => 8
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S50000x128, .bf16⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .bf16⟩
  | .hbm, ⟨18, _⟩ => ⟨S800000x128, .f32⟩
  | .hbm, ⟨19, _⟩ => ⟨S_, .f32⟩
  | .hbm, ⟨20, _⟩ => ⟨S50000x128, .f32⟩
  | .hbm, ⟨21, _⟩ => ⟨S800000x1, .i32⟩
  | .hbm, ⟨22, _⟩ => ⟨S50000x128, .f32⟩
  | .hbm, ⟨23, _⟩ => ⟨S_, .i32⟩
  | .hbm, ⟨24, _⟩ => ⟨S50000, .i32⟩
  | .hbm, ⟨25, _⟩ => ⟨S_, .i32⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S_, .i32⟩
  | .hbm, ⟨38, _⟩ => ⟨S800000, .i32⟩
  | .hbm, ⟨39, _⟩ => ⟨S50000, .i32⟩
  | .hbm, ⟨40, _⟩ => ⟨S50000, .f32⟩
  | .hbm, ⟨41, _⟩ => ⟨S128x128, .f32⟩
  | .hbm, ⟨42, _⟩ => ⟨S1x128, .f32⟩
  | .hbm, ⟨43, _⟩ => ⟨S50000x1, .f32⟩
  | .hbm, ⟨44, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_c_2 : Ref sig .tc := ⟨.hbm, 25, rfl⟩
abbrev main_call0_v0 : Ref sig .tc := ⟨.hbm, 26, rfl⟩
abbrev main_call0_v1 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  transposes_S128x128_S128x128_1_0 : S128x128.Transposes [1, 0] S128x128
  shapeCasts_S128_S1x128 : S128.ShapeCasts S1x128
  shapeCasts_S50000_S50000x1 : S50000.ShapeCasts S50000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v15) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 47
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S_, .f32⟩
  | .hbm, ⟨18, _⟩ => ⟨S50000x128, .f32⟩
  | .hbm, ⟨19, _⟩ => ⟨S800000x1, .i32⟩
  | .hbm, ⟨20, _⟩ => ⟨S50000x128, .f32⟩
  | .hbm, ⟨21, _⟩ => ⟨S_, .i32⟩
  | .hbm, ⟨22, _⟩ => ⟨S50000, .i32⟩
  | .hbm, ⟨23, _⟩ => ⟨S_, .i32⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S_, .i32⟩
  | .hbm, ⟨36, _⟩ => ⟨S800000, .i32⟩
  | .hbm, ⟨37, _⟩ => ⟨S50000, .i32⟩
  | .hbm, ⟨38, _⟩ => ⟨S50000, .f32⟩
  | .hbm, ⟨39, _⟩ => ⟨S50000x1, .f32⟩
  | .hbm, ⟨40, _⟩ => ⟨S50000x128, .f32⟩
  | .hbm, ⟨41, _⟩ => ⟨S50000x128, .f32⟩
  | .hbm, ⟨42, _⟩ => ⟨S128x128, .f32⟩
  | .hbm, ⟨43, _⟩ => ⟨S50000x128, .f32⟩
  | .hbm, ⟨44, _⟩ => ⟨S1x128, .f32⟩
  | .hbm, ⟨45, _⟩ => ⟨S50000x128, .f32⟩
  | .hbm, ⟨46, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_c_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.HostArrays.lean ====
/-
  What the four input arrays of the grid hold when the region is entered, as functions of the program's arguments.

  Before the region the host computes, from the edge list (a [2, 800000] array: row 0 the destination node of
  each edge, row 1 its source node):
    * the aggregated features: every source node's feature row (read from a half-precision copy of the
      features and widened again) added into its edge's destination row, from zeros — a gather followed by a
      scatter-add, negative indices wrapped by the number of nodes first;
    * the degrees: a one added into each edge's destination node, from zeros, the destinations clipped below
      at zero and then wrapped the same way — a count per node, converted to a float;
  and it transposes the weights, reshapes the bias to a row [1, 128] and the degrees to a column [50000, 1].
-/
import proofs.«179608_j54176717472164_2_alg».proof.Proof.Gen.KernelIdeal.Frame
import Idealize.ShloMosaic.Lib.StableHlo.Run
import Idealize.ShloMosaic.PureOps.Ideal

noncomputable section

namespace Cert.KernelIdeal.HostArrays

open Cert.KernelIdeal Cert.KernelIdeal.Gen Idealize.ShloMosaic Idealize.ShloMosaic.TcCoe Idealize.SL.Sem
  Idealize.ShloMosaic.StableHlo

/-- Row 0 of the edge list: each edge's destination node. -/
def destinations (x1 : IVec S2x800000 32) : IVec S800000 32 :=
  shapeCast _ (extractStridedSlice S1x800000 ![0, 0] x1 slices_S2x800000_S1x800000_0_0) shapeCasts_S1x800000_S800000

/-- Row 1 of the edge list: each edge's source node. -/
def sources (x1 : IVec S2x800000 32) : IVec S800000 32 :=
  shapeCast _ (extractStridedSlice S1x800000 ![1, 0] x1 slices_S2x800000_S1x800000_1_0) shapeCasts_S1x800000_S800000

/-- A negative node index counted from the end: the number of nodes added to it. -/
def wrapped (v : IVec S800000 32) : IVec S800000 32 :=
  select (cmpi .slt v (broadcastInDim S800000 ![] bcast_S_S800000 (constantI S_ 32 0#32)))
    (addi v (broadcastInDim S800000 ![] bcast_S_S800000 (constantI S_ 32 50000#32))) v

/-- A vector of node indices as the one-column index array a gather or scatter takes. -/
def asColumn (v : IVec S800000 32) : IVec S800000x1 32 :=
  broadcastInDim S800000x1 ![0] bcast_S800000_S800000x1_0 v

/-- The aggregated features: each edge's source row added into its destination row. -/
def aggregated (x0 : FVec Ideal S50000x128 .f32) (x1 : IVec S2x800000 32) : FVec Ideal S50000x128 .f32 :=
  Host.scatterAdd scatter_S50000x128_S800000x1_S800000x128_1_0_0_1
    (broadcastInDim S50000x128 ![] bcast_S_S50000x128 (constant (F := Ideal) S_ .f32 0x00000000#32))
    (asColumn (destinations x1))
    (extf .f32 (Host.gather gather_S50000x128_S800000x1_S800000x128_1_0_n_n_0_1_1128
      (truncf .bf16 x0 bitsLt_bf16_f32) (asColumn (wrapped (sources x1)))) bitsLt_bf16_f32)

/-- The number of edges into each node. -/
def counts (x1 : IVec S2x800000 32) : IVec S50000 32 :=
  Host.scatter scatter_S50000_S800000x1_S800000_n_0_0_1 IntOp.addi
    (broadcastInDim S50000 ![] bcast_S_S50000 (constantI S_ 32 0#32))
    (asColumn (wrapped (maxsi (broadcastInDim S800000 ![] bcast_S_S800000 (id (constantI S_ 32 0#32))) (destinations x1))))
    (broadcastInDim S800000 ![] bcast_S_S800000 (constantI S_ 32 1#32))

/-- The degrees: the counts as floats. -/
def degrees (x1 : IVec S2x800000 32) : FVec Ideal S50000 .f32 := sitofp .f32 (counts x1)

variable (m : (ℓ : Loc nD τ sig) → Buf (Elt Ideal) ℓ)

set_option maxRecDepth 8192 in
set_option maxHeartbeats 2000000 in
/-- Window 0's array at region entry: the aggregated features. -/
theorem V_features (c : Dev nD) :
    (V m c main_v15 : S50000x128.Idx → EReal)
      = aggregated (m ((c : Thread nD τ).loc main_arg0)) (m ((c : Thread nD τ).loc main_arg1)) := by
  dsimp only [Gen.V]
  simp only [Gen.hostOps0, Gen.hostOps0_1, Gen.hostOps0_2, List.flatten_cons, List.flatten_nil, List.append_nil,
    List.cons_append, List.nil_append]
  after_results_simp <;> rfl

set_option maxRecDepth 8192 in
set_option maxHeartbeats 2000000 in
/-- Window 1's array at region entry: the degrees as a column. -/
theorem V_degrees (c : Dev nD) :
    (V m c main_v29 : S50000x1.Idx → EReal)
      = shapeCast S50000x1 (degrees (m ((c : Thread nD τ).loc main_arg1))) shapeCasts_S50000_S50000x1 := by
  dsimp only [Gen.V]
  simp only [Gen.hostOps0, Gen.hostOps0_1, Gen.hostOps0_2, List.flatten_cons, List.flatten_nil, List.append_nil,
    List.cons_append, List.nil_append]
  after_results_simp <;> rfl

set_option maxRecDepth 8192 in
set_option maxHeartbeats 2000000 in
/-- Window 2's array at region entry: the weights transposed. -/
theorem V_weights (c : Dev nD) :
    (V m c main_v27 : S128x128.Idx → EReal)
      = transpose S128x128 [1, 0] (m ((c : Thread nD τ).loc main_arg2) : S128x128.Idx → EReal) transposes_S128x128_S128x128_1_0 := by
  dsimp only [Gen.V]
  simp only [Gen.hostOps0, Gen.hostOps0_1, Gen.hostOps0_2, List.flatten_cons, List.flatten_nil, List.append_nil,
    List.cons_append, List.nil_append]
  after_results_simp <;> rfl

set_option maxRecDepth 8192 in
set_option maxHeartbeats 2000000 in
/-- Window 3's array at region entry: the bias as one row. -/
theorem V_bias (c : Dev nD) :
    (V m c main_v28 : S1x128.Idx → EReal)
      = shapeCast S1x128 (m ((c : Thread nD τ).loc main_arg3) : S128.Idx → EReal) shapeCasts_S128_S1x128 := by
  dsimp only [Gen.V]
  simp only [Gen.hostOps0, Gen.hostOps0_1, Gen.hostOps0_2, List.flatten_cons, List.flatten_nil, List.append_nil,
    List.cons_append, List.nil_append]
  after_results_simp <;> rfl

end Cert.KernelIdeal.HostArrays

end
-- ==== Proof.LibRowOps.lean ====
/-
  Layout operations on arrays of rows, read at an index.

  A row-wise sum, the column-vector forms of a reshape and of a broadcast, the two pieces of a
  concatenation along the last axis, and the plain matrix product into a zero accumulator — each read at
  `(r, c)` as the operand's elements it depends on.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

namespace Cert.Lib.RowOps

open Idealize.ShloMosaic Idealize.ShloMosaic.ValueIdx

variable {α : Type}

/-- A length-`a` vector reshaped to a column `[a, 1]` reads, at `(r, 0)`, the vector at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column `[a, 1]` broadcast to `[a, b]` reads, at `(r, c)`, the column at `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Two arrays joined along the last axis: a column below the first extent is the first array's. -/
theorem concat_cols_left {a b₁ b₂ : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, b₁ + b₂]⟩ 1) (r : Fin a) (c : Fin (b₁ + b₂)) (hc : c.val < b₁) :
    concatenate ⟨2, ![a, b₁ + b₂]⟩ 1 [⟨⟨2, ![a, b₁]⟩, x₁⟩, ⟨⟨2, ![a, b₂]⟩, x₂⟩] h (ix2 r c) = x₁ (ix2 r ⟨c.val, hc⟩) :=
  concatenate_pair_apply_left 1 x₁ x₂ h (ix2 r c) rfl (ix2 r ⟨c.val, hc⟩) (fun b => by
    match b with
    | ⟨0, _⟩ => rfl
    | ⟨1, _⟩ => rfl)

/-- … and a column from the first extent on is the second array's, the first extent less. -/
theorem concat_cols_right {a b₁ b₂ : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, b₁ + b₂]⟩ 1) (r : Fin a) (c : Fin (b₁ + b₂)) (c' : Fin b₂)
    (hc : c'.val + b₁ = c.val) :
    concatenate ⟨2, ![a, b₁ + b₂]⟩ 1 [⟨⟨2, ![a, b₁]⟩, x₁⟩, ⟨⟨2, ![a, b₂]⟩, x₂⟩] h (ix2 r c) = x₂ (ix2 r c') :=
  concatenate_pair_apply_right 1 x₁ x₂ h (ix2 r c) rfl rfl (ix2 r c') (fun b hb => by
    match b with
    | ⟨0, _⟩ => rfl
    | ⟨1, _⟩ => exact absurd rfl hb) hc

/-- A length-`b` vector broadcast to a one-row array `[1, b]` along its second axis reads, at `(u, c)`, the vector at `c`. -/
theorem bcastInDim_b_1b {b : ℕ} (x : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A one-row array `[1, b]` broadcast to `[a, b]` axis by axis reads, at `(p, c)`, the row at `c`. -/
theorem bcastInDim_1b_ab {a b : ℕ} (x : (⟨2, ![1, b]⟩ : Shape).Idx → α) (h : (⟨2, ![1, b]⟩ : Shape).BroadcastsInDim ⟨2, ![a, b]⟩ ![0, 1])
    (p : Fin a) (c : Fin b) : broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- A column `[a, 1]` broadcast to `[a, b]` axis by axis reads, at `(p, c)`, the column at `p`. -/
theorem bcastInDim_a1_ab {a b : ℕ} (x : (⟨2, ![a, 1]⟩ : Shape).Idx → α) (h : (⟨2, ![a, 1]⟩ : Shape).BroadcastsInDim ⟨2, ![a, b]⟩ ![0, 1])
    (p : Fin a) (c : Fin b) : broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- A length-`a` vector broadcast to a column `[a, 1]` along its first axis reads, at `(p, u)`, the vector at `p`. -/
theorem bcastInDim_a_a1 {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A scalar broadcast to any shape reads the scalar everywhere. -/
theorem bcastInDim_scalar {t : Shape} (x : (⟨0, ![]⟩ : Shape).Idx → α) (h : (⟨0, ![]⟩ : Shape).BroadcastsInDim t ![]) (i : t.Idx) :
    broadcastInDim t ![] h x i = x ix0 :=
  broadcastInDim_apply _ h x i ix0 fun ax => ax.elim0

/-- A sum over the last axis of an `[a, b]` array of extended reals, read at `r`: the row's sum. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun ax => Fin.ext ?_)
  match ax with
  | ⟨0, _⟩ => rfl
  | ⟨1, _⟩ => rfl

/-- The same for a single-precision array whose printed accumulator is the zero pattern, the proof argument typed as printed. -/
theorem rowSum_f32_apply {a b : ℕ} (src : FVec Ideal ⟨2, ![a, b]⟩ .f32)
    (h : (⟨2, ![a, b]⟩ : Shape).Reduces [1] ⟨1, ![a]⟩) (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) :=
  rowSum_apply src _ h hφ hacc r

/-- The plain product of an `m×k` by a `k×n` matrix accumulated into zeros, read at `(a, b)` on the extended reals. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  have e : matmul (DotDims.plain m k n) prec A B (constant ⟨2, ![m, n]⟩ .f32 0x00000000#32) (ix2 a b)
      = Host.dotGeneral (DotDims.plain m k n) prec A B (ix2 a b) := by
    show FloatOps.matmul _ prec A B _ (ix2 a b) = FloatOps.dotGeneral _ prec _ A B (ix2 a b)
    rw [Ideal.matmul_constant_zero_apply, Ideal.dotGeneral_apply]
  rw [e]
  exact StackMember.dotGeneral_plain_apply prec A B a b

end Cert.Lib.RowOps

end
-- ==== Proof.PositiveDegree.lean ====
/-
  What the precondition says about the edge list: every node has at least one incoming edge.

  The precondition's last conjunct counts, for each node, the edges whose destination is that node — a one added
  into the node's entry of a zero vector per edge, the destinations clipped below at zero and a negative index
  counted from the end — and asks every count to be greater than zero as a signed integer.  Read back: the
  conjunction gives the last conjunct, the "all" over the 50000 comparisons gives each comparison, and a signed
  comparison that answers one says its left word is the greater integer.
-/
import proofs.«179608_j54176717472164_2_alg».proof.Pre_finite_inputs
import proofs.«179608_j54176717472164_2_alg».proof.Proof.Gen.Pre_finite_inputs
import proofs.«179608_j54176717472164_2_alg».proof.Proof.LibRowOps
import Idealize.ShloMosaic.Lib.ReduceAll
import Idealize.ShloMosaic.Lib.Affine
import Idealize.ShloMosaic.Lib.ValueIdx
import Idealize.ShloMosaic.PureOps.Ideal

noncomputable section

namespace Cert.Pre_finite_inputs.Degree

open Cert.Pre_finite_inputs Cert.Pre_finite_inputs.Gen Idealize.ShloMosaic Idealize.ShloMosaic.ValueIdx

/-- The destinations of the edges, clipped below at zero. -/
def clipped (x1 : IVec S2x800000 32) : IVec S800000 32 :=
  maxsi (broadcastInDim S800000 ![] bcast_S_S800000 (constantI S_ 32 0#32))
    (shapeCast S800000 (extractStridedSlice S1x800000 ![0, 0] x1 slices_S2x800000_S1x800000_0_0) shapeCasts_S1x800000_S800000)

/-- The number of edges into each node, as the precondition counts them. -/
def counts (x1 : IVec S2x800000 32) : IVec S50000 32 :=
  Host.scatter scatter_S50000_S800000x1_S800000_n_0_0_1 IntOp.addi
    (broadcastInDim S50000 ![] bcast_S_S50000 (constantI S_ 32 0#32))
    (broadcastInDim S800000x1 ![0] bcast_S800000_S800000x1_0
      (select (cmpi .slt (clipped x1) (broadcastInDim S800000 ![] bcast_S_S800000 (constantI S_ 32 0#32)))
        (addi (clipped x1) (broadcastInDim S800000 ![] bcast_S_S800000 (constantI S_ 32 50000#32))) (clipped x1)))
    (broadcastInDim S800000 ![] bcast_S_S800000 (constantI S_ 32 1#32))

instance : Subsingleton S_.Idx := ⟨fun a b => funext fun d => d.elim0⟩

/-- Under the precondition every node's count is a positive integer. -/
theorem counts_pos (x0 : FVec Ideal S50000x128 .f32) (x1 : IVec S2x800000 32) (x2 : FVec Ideal S128x128 .f32)
    (x3 : FVec Ideal S128 .f32) (h : fn (F := Ideal) x0 x1 x2 x3 = fun _ => 1#1) (r : S50000.Idx) :
    0 < (counts x1 r).toInt := by
  have h0 := congrFun h ix0
  change IntOp.andi _ (Host.reduce IntOp.andi
    (cmpi .sgt (counts x1) (broadcastInDim S50000 ![] bcast_S_S50000 (constantI S_ 32 0#32)))
    (constantI S_ 1 1#1) reducesTo_S50000_S_d0 h_S_ ix0) = 1#1 at h0
  have h1 := Host.reduce_andi_all _ _ _ _ ix0 (IntOp.andi_eq_one.mp h0).2 r
  change IntOp.cmpi .sgt (counts x1 r) (broadcastInDim S50000 ![] bcast_S_S50000 (constantI S_ 32 0#32) r) = 1#1 at h1
  rw [Cert.Lib.RowOps.bcastInDim_scalar] at h1
  have h2 := IntOp.cmpi_sgt.mp h1
  rw [constantI_apply, BitVec.toInt_zero] at h2
  exact h2

end Cert.Pre_finite_inputs.Degree

end
-- ==== Proof.MeanLinear.lean ====
/-
  Mean aggregation followed by a linear layer, on the extended reals, over literal shapes: 50000 nodes with 128
  features, a 128 by 128 weight matrix already transposed, and a bias of 128 entries.

  Entry (r, c) of the result is  sum over k of mean(r, k) * Wt(k, c), plus B(c), where mean(r, k) is the aggregated
  feature A(r, k) over the node's degree D(r).  Two spellings of the mean are set side by side: the quotient
  A(r, k) / D(r), and the product A(r, k) * (1 / D(r)) with the reciprocal taken once per node.  On the extended
  reals, with the division that answers an infinity (or the junk value for 0 / 0) when the divisor is zero, the two
  agree exactly when the divisor is not zero: then x / d is x * d⁻¹ for every extended real x, and 1 / d is d⁻¹.
  (At a zero divisor they differ: 0 * (1 / 0) is 0 while 0 / 0 is the bottom element.)

  A third spelling reads the degree from a column array [50000, 1] and the bias from a row array [1, 128]; it is
  the reciprocal form of the vectors those two arrays are reshaped from.
-/
import Idealize.ShloMosaic.PureOps.Ideal
import Idealize.ShloMosaic.Lib.ValueIdx
import Idealize.ShloMosaic.Lib.ValueLayout
import proofs.«179608_j54176717472164_2_alg».proof.Proof.LibRowOps

noncomputable section

namespace Cert.MeanLinear

open Idealize.ShloMosaic Idealize.ShloMosaic.ValueIdx

/-- The node-feature shape, the degree vector's, the weight matrix's, the bias vector's, and the two staged forms'. -/
abbrev SNodes : Shape := ⟨2, ![50000, 128]⟩
abbrev SDeg : Shape := ⟨1, ![50000]⟩
abbrev SWt : Shape := ⟨2, ![128, 128]⟩
abbrev SBias : Shape := ⟨1, ![128]⟩
abbrev SDegCol : Shape := ⟨2, ![50000, 1]⟩
abbrev SBiasRow : Shape := ⟨2, ![1, 128]⟩

/-- The quotient form: each aggregated feature over its node's degree, times the transposed weights, plus the bias. -/
def quotientForm (A : SNodes.Idx → EReal) (D : SDeg.Idx → EReal) (Wt : SWt.Idx → EReal) (B : SBias.Idx → EReal) :
    SNodes.Idx → EReal :=
  fun i => (∑ k : Fin 128, Ideal.div (A (ix2 (i 0) k)) (D (ix1 (i 0))) * Wt (ix2 k (i 1))) + B (ix1 (i 1))

/-- The reciprocal form: each aggregated feature times the reciprocal of its node's degree. -/
def reciprocalForm (A : SNodes.Idx → EReal) (D : SDeg.Idx → EReal) (Wt : SWt.Idx → EReal) (B : SBias.Idx → EReal) :
    SNodes.Idx → EReal :=
  fun i => (∑ k : Fin 128, (A (ix2 (i 0) k) * Ideal.div 1 (D (ix1 (i 0)))) * Wt (ix2 k (i 1))) + B (ix1 (i 1))

/-- The reciprocal form with the degree read from a column and the bias from a row. -/
def stagedForm (A : SNodes.Idx → EReal) (Dc : SDegCol.Idx → EReal) (Wt : SWt.Idx → EReal) (Br : SBiasRow.Idx → EReal) :
    SNodes.Idx → EReal :=
  fun i => (∑ k : Fin 128, (A (ix2 (i 0) k) * Ideal.div 1 (Dc (ix2 (i 0) (0 : Fin 1)))) * Wt (ix2 k (i 1)))
    + Br (ix2 (0 : Fin 1) (i 1))

/-- Off a zero divisor, a product with the reciprocal is the quotient, for every extended real numerator. -/
theorem mul_recip (a d : EReal) (hd : d ≠ 0) : a * Ideal.div 1 d = Ideal.div a d := by
  unfold Ideal.div
  rw [if_neg hd, if_neg hd, one_mul]

/-- Where no degree is zero the reciprocal form is the quotient form. -/
theorem reciprocalForm_eq_quotientForm (A : SNodes.Idx → EReal) (D : SDeg.Idx → EReal) (Wt : SWt.Idx → EReal)
    (B : SBias.Idx → EReal) (hD : ∀ r, D r ≠ 0) : reciprocalForm A D Wt B = quotientForm A D Wt B := by
  funext i
  unfold reciprocalForm quotientForm
  refine congrArg (· + B (ix1 (i 1))) (Finset.sum_congr rfl fun k _ => ?_)
  rw [mul_recip _ _ (hD _)]

/-- The staged form of a degree vector reshaped to a column and a bias vector reshaped to a row is the reciprocal
    form of the two vectors. -/
theorem stagedForm_reshaped (A : SNodes.Idx → EReal) (D : SDeg.Idx → EReal) (Wt : SWt.Idx → EReal) (B : SBias.Idx → EReal)
    (hd : SDeg.ShapeCasts SDegCol) (hb : SBias.ShapeCasts SBiasRow) :
    stagedForm A (shapeCast SDegCol D hd) Wt (shapeCast SBiasRow B hb) = reciprocalForm A D Wt B := by
  funext i
  unfold stagedForm reciprocalForm
  rw [Cert.Lib.RowOps.shapeCast_a_a1_apply D hd (i 0) (0 : Fin 1), shapeCast_a_1a_apply B hb (0 : Fin 1) (i 1)]

end Cert.MeanLinear

end
-- ==== Proof.RefValue.lean ====
/-
  The reference, read at an index: its result is the quotient form of its own intermediate arrays.

  The reference divides the aggregated features (a gather and a scatter-add over the edge list) by the degrees
  repeated along each row, multiplies by the transposed weights with one contracted axis and adds the bias
  repeated down the rows.  At entry (r, c) that is

      sum over k of (aggregated(r, k) / degree(r)) * transposed(k, c),  plus bias(c):

  the two broadcasts of the degrees read the degree of row r, the two broadcasts of the bias read its entry c.
-/
import proofs.«179608_j54176717472164_2_alg».proof.Proof.Gen.ReferenceIdeal.Read
import proofs.«179608_j54176717472164_2_alg».proof.Proof.MeanLinear

noncomputable section

namespace Cert.ReferenceIdeal.RefValue

open Cert.ReferenceIdeal Cert.ReferenceIdeal.Gen Cert.ReferenceIdeal.Read Idealize.ShloMosaic Idealize.ShloMosaic.ValueIdx
  Cert.MeanLinear

/-- The product's left operand at output (r, c), contraction position k, sits at (r, k) … -/
theorem lidx_eq (r : Fin 50000) (c k : Fin 128) : lidx_main_v29 (ix2 r c) k = ix2 r k :=
  funext fun a => Fin.ext (by match a with | ⟨0, _⟩ => rfl | ⟨1, _⟩ => rfl)

/-- … and its right operand at (k, c). -/
theorem ridx_eq (r : Fin 50000) (c k : Fin 128) : ridx_main_v29 (ix2 r c) k = ix2 k c :=
  funext fun a => Fin.ext (by match a with | ⟨0, _⟩ => rfl | ⟨1, _⟩ => rfl)

/-- The degrees repeated along a row read the row's degree. -/
theorem degidx_eq (r : Fin 50000) (k : Fin 128) : idx_main_v25 (idx_main_v26 (ix2 r k)) = ix1 r :=
  funext fun a => Fin.ext (by match a with | ⟨0, _⟩ => rfl)

/-- The bias repeated down the rows reads the column's entry. -/
theorem biasidx_eq (r : Fin 50000) (c : Fin 128) : idx_main_v30 (idx_main_v31 (ix2 r c)) = ix1 c :=
  funext fun a => Fin.ext (by match a with | ⟨0, _⟩ => rfl)

/-- THE REFERENCE'S RESULT is the quotient form of its aggregated features, degrees, transposed weights and bias. -/
theorem result_eq (x0 : FVec Ideal S50000x128 .f32) (x1 : IVec S2x800000 32) (x2 : FVec Ideal S128x128 .f32)
    (x3 : FVec Ideal S128 .f32) :
    val_main_v32 (F := Ideal) x0 x1 x2 x3
      = quotientForm (val_main_v13 (F := Ideal) x0 x1) (val_main_v24 (F := Ideal) x1) (val_main_v28 (F := Ideal) x2) x3 := by
  funext i
  obtain ⟨r, c, rfl⟩ : ∃ (r : Fin 50000) (c : Fin 128), i = ix2 r c := ⟨i 0, i 1, eq_ix2 i⟩
  rw [val_main_v32_apply, val_main_v29_apply, val_main_v31_apply, val_main_v30_apply, biasidx_eq]
  show _ = (∑ k : Fin 128, Ideal.div (val_main_v13 (F := Ideal) x0 x1 (ix2 r k)) (val_main_v24 (F := Ideal) x1 (ix1 r))
      * val_main_v28 (F := Ideal) x2 (ix2 k c)) + x3 (ix1 c)
  refine congrArg (· + x3 (ix1 c)) (Finset.sum_congr rfl fun k _ => ?_)
  rw [lidx_eq, ridx_eq, val_main_v27_apply, val_main_v26_apply, val_main_v25_apply, degidx_eq]
  rfl

end Cert.ReferenceIdeal.RefValue

end
-- ==== Proof.LibMatmulSum.lean ====
/-
  The matrix unit's product with ONE contracted axis into a zero accumulator, on the extended reals and whatever
  precision it is asked for, read at an index as a plain sum over that axis: the caller names the two operands'
  indices at contraction position k, and the sum is re-indexed by the axis's one coordinate.
-/
import Idealize.ShloMosaic.Lib.ValueIdx
import Idealize.ShloMosaic.PureOps.Ideal.Laws

namespace Cert.Lib.MatmulSum

open Idealize.ShloMosaic Idealize.ShloMosaic.ValueIdx

/-- A product into zeros at an output index is the sum over the contracted axis of the operands' products, each read
    where the dimension numbers put it. -/
theorem matmul_zero_eq_sum {sl sr so : Shape} {φ₁ φ₂ : FTy} (d : DotDims sl sr so) (prec : Option ContractPrecision)
    (K : Nat) (hr : d.contr.rank = 1) (hs : d.contr.size ⟨0, by omega⟩ = K)
    (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    matmul d prec x w (constant so .f32 0x00000000#32) j = ∑ k : Fin K, x (li k) * w (ri k) := by
  show FloatOps.matmul d prec x w (constant so .f32 0x00000000#32) j = _
  rw [Ideal.matmul_constant_zero_apply, ← Equiv.sum_comp (contrEquiv1 d K hr hs).symm]
  exact Finset.sum_congr rfl fun k _ => by rw [hl k, hw k]

end Cert.Lib.MatmulSum
-- ==== Proof.BlockValue.lean ====
/-
  One grid point's body as a function of its four loaded blocks, at an index, on the extended reals.

  The body loads a [5000, 1] column of degrees, a [5000, 128] block of aggregated features, the whole transposed
  weight matrix and the bias row.  It forms the reciprocal 1 / degree once per row, multiplies every feature of the
  row by it, contracts the result with the weights over the 128 features, and adds the bias row to every row.  So
  entry (p, q) of what it stores is

      sum over k of (features(p, k) * (1 / degree(p, 0))) * weights(k, q),  plus bias(0, q).

  The changes of float format on the way into the product are the identity here, the product into a zero
  accumulator is the plain sum over the contracted axis, and the literal 1.0 denotes the real number one.
-/
import proofs.«179608_j54176717472164_2_alg».proof.Proof.Gen.KernelIdeal.Skeleton
import proofs.«179608_j54176717472164_2_alg».proof.Proof.LibRowOps
import proofs.«179608_j54176717472164_2_alg».proof.Proof.LibMatmulSum
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx

/-- The single-precision pattern of 1.0 denotes the real number one. -/
theorem one_f32 : Ideal.ofBits .f32 0x3F800000#32 = 1 := by
  simp [Ideal.ofBits, Ideal.ieee, -EReal.coe_mul]; norm_num

/-- The reciprocal column at row p: one over the row's degree. -/
theorem recip_apply (d : FVec Ideal S5000x1 .f32) (p : Fin 5000) (u : Fin 1) :
    divf (broadcast S5000x1 (Scalar.ofBits (F := Ideal) .f32 0x3F800000#32)) (shapeCast S5000x1 d shapeCasts_S5000x1_S5000x1) (ix2 p u)
      = Ideal.div 1 (d (ix2 p u)) := by
  rw [divf_apply, broadcast_apply, shapeCast_self]
  show Ideal.div (Ideal.ofBits .f32 0x3F800000#32) _ = _
  rw [one_f32]

/-- The scaled features at (p, k): the feature times the row's reciprocal degree. -/
theorem scaled_apply (d : FVec Ideal S5000x1 .f32) (a : FVec Ideal S5000x128 .f32) (p : Fin 5000) (k : Fin 128) :
    mulf (shapeCast S5000x128 a shapeCasts_S5000x128_S5000x128)
        (broadcastTo S5000x128 (divf (broadcast S5000x1 (Scalar.ofBits (F := Ideal) .f32 0x3F800000#32)) (shapeCast S5000x1 d shapeCasts_S5000x1_S5000x1)) broadcasts_S5000x1_S5000x128) (ix2 p k)
      = a (ix2 p k) * Ideal.div 1 (d (ix2 p (0 : Fin 1))) := by
  rw [mulf_apply, shapeCast_self, Cert.Lib.RowOps.broadcastTo_a1_ab_apply _ broadcasts_S5000x1_S5000x128 p k, recip_apply]

/-- At output entry (p, q) and contraction position k the product reads its left operand at (p, k) … -/
theorem lhs_at (p : Fin 5000) (q k : Fin 128) :
    dot_S5000x128_S128x128_S5000x128_1_0_0_1_n_n.lhsIdx (ix2 p q)
        ((contrEquiv1 dot_S5000x128_S128x128_S5000x128_1_0_0_1_n_n 128 rfl rfl).symm k) = ix2 p k := by
  have hk := contrEquiv1_symm_val dot_S5000x128_S128x128_S5000x128_1_0_0_1_n_n 128 rfl rfl k
  funext a
  apply Fin.ext
  match a with
  | ⟨0, _⟩ =>
    show (dot_S5000x128_S128x128_S5000x128_1_0_0_1_n_n.lhsIdx (ix2 p q) _ 0).val = p.val
    unfold DotDims.lhsIdx
    rw [dif_neg (show ¬(0 : Fin S5000x128.rank) ∈ dot_S5000x128_S128x128_S5000x128_1_0_0_1_n_n.lhsBatch by decide),
      dif_pos (show (0 : Fin S5000x128.rank) ∈ dot_S5000x128_S128x128_S5000x128_1_0_0_1_n_n.lhsNonContracting by decide)]
    rfl
  | ⟨1, _⟩ =>
    exact (dot_S5000x128_S128x128_S5000x128_1_0_0_1_n_n.lhsIdx_val_of_single rfl (ix2 p q) _).trans hk

/-- … and its right operand at (k, q). -/
theorem rhs_at (p : Fin 5000) (q k : Fin 128) :
    dot_S5000x128_S128x128_S5000x128_1_0_0_1_n_n.rhsIdx (ix2 p q)
        ((contrEquiv1 dot_S5000x128_S128x128_S5000x128_1_0_0_1_n_n 128 rfl rfl).symm k) = ix2 k q := by
  have hk := contrEquiv1_symm_val dot_S5000x128_S128x128_S5000x128_1_0_0_1_n_n 128 rfl rfl k
  funext a
  apply Fin.ext
  match a with
  | ⟨0, _⟩ =>
    exact (dot_S5000x128_S128x128_S5000x128_1_0_0_1_n_n.rhsIdx_val_of_single rfl (ix2 p q) _).trans hk
  | ⟨1, _⟩ =>
    show (dot_S5000x128_S128x128_S5000x128_1_0_0_1_n_n.rhsIdx (ix2 p q) _ 1).val = q.val
    unfold DotDims.rhsIdx
    rw [dif_neg (show ¬(1 : Fin S128x128.rank) ∈ dot_S5000x128_S128x128_S5000x128_1_0_0_1_n_n.rhsBatch by decide),
      dif_pos (show (1 : Fin S128x128.rank) ∈ dot_S5000x128_S128x128_S5000x128_1_0_0_1_n_n.rhsNonContracting by decide)]
    rfl

/-- The bias row repeated down the block reads, at (p, q), the row's entry q. -/
theorem bias_apply (b : FVec Ideal S1x128 .f32) (p : Fin 5000) (q : Fin 128) :
    broadcastTo S5000x128 (shapeCast S1x128 b shapeCasts_S1x128_S1x128) broadcasts_S1x128_S5000x128 (ix2 p q)
      = b (ix2 (0 : Fin 1) q) := by
  rw [broadcastTo_1b_ab_apply _ broadcasts_S1x128_S5000x128 p q, shapeCast_self]

/-- THE BODY AT AN INDEX: what one grid point stores at (p, q), from its four loaded blocks. -/
theorem payload_apply (d : FVec Ideal S5000x1 .f32) (a : FVec Ideal S5000x128 .f32) (w : FVec Ideal S128x128 .f32)
    (b : FVec Ideal S1x128 .f32) (p : Fin 5000) (q : Fin 128) :
    k0_pay1 (F := Ideal) d a w b (ix2 p q)
      = (∑ k : Fin 128, (a (ix2 p k) * Ideal.div 1 (d (ix2 p (0 : Fin 1)))) * w (ix2 k q)) + b (ix2 (0 : Fin 1) q) := by
  unfold k0_pay1
  rw [addf_apply, bias_apply,
    Cert.Lib.MatmulSum.matmul_zero_eq_sum dot_S5000x128_S128x128_S5000x128_1_0_0_1_n_n none 128 rfl rfl _ _ (ix2 p q)
      (fun k => ix2 p k) (fun k => ix2 k q) (fun k => lhs_at p q k) (fun k => rhs_at p q k)]
  refine congrArg (· + b (ix2 (0 : Fin 1) q)) (Finset.sum_congr rfl fun k _ => ?_)
  rw [truncf_apply, truncf_apply, scaled_apply, shapeCast_self]

end Cert.KernelIdeal.Block

end
-- ==== Proof.KernelValue.lean ====
/-
  The kernel's result array after the run, as one function of the arrays the region finds.

  The grid has ten points.  Point t reads rows 5000 t … 5000 t + 4999 of the aggregated features and of the degree
  column, the whole transposed weight matrix and the whole bias row, and writes rows 5000 t … 5000 t + 4999 of the
  result.  By the body's value at an index, entry (p, q) of what point t writes is the staged form of those four
  arrays at row 5000 t + p and column q; the ten row blocks cover the result, the block of row r being that of
  point r / 5000.  So the result array ends holding the staged form everywhere.
-/
import proofs.«179608_j54176717472164_2_alg».proof.Proof.Gen.KernelIdeal.Value
import proofs.«179608_j54176717472164_2_alg».proof.Proof.BlockValue
import proofs.«179608_j54176717472164_2_alg».proof.Proof.MeanLinear
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Whole

open Cert.KernelIdeal Cert.KernelIdeal.Gen Idealize.ShloMosaic.ValueIdx Cert.MeanLinear

variable (m : (ℓ : Loc nD τ sig) → Buf (Elt Ideal) ℓ) (ρ : Dev nD → PrngReg)

theorem zero_offsets : (![0, 0] : Fin 2 → Nat) = fun _ => 0 := funext fun a => by fin_cases a <;> rfl

/-- The block each window shows at grid point t: row block t of the features, of the degree column and of the
    result; the one block of the weights and of the bias row. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The staged form of the four arrays as the region finds them. -/
def result (c : Dev nD) : Buf (Elt Ideal) ((c : Thread nD τ).loc main_v30) :=
  stagedForm (V m c main_v15) (V m c main_v29) (V m c main_v27) (V m c main_v28)

/-! ## The four windows' blocks at a point, read off any array -/

/-- Entry (p, k) of the feature window's block at point t is entry (5000 t + p, k) of its array. -/
theorem read_feature_rows (t : Fin cfg0.N) (X : S50000x128.Idx → EReal) (p : Fin 5000) (k : Fin 128) (r : Fin 50000)
    (hr : r.val = t.val * 5000 + p.val) :
    ((cfg0.win 0).blk t).view.read (Elt Ideal) X (ix2 p k) = X (ix2 r k) := by
  obtain ⟨e00, e01, -⟩ := block_indices t
  show X (((cfg0.win 0).blk t).view.emb (ix2 p k)) = X (ix2 r k)
  refine congrArg X (funext fun a => Fin.ext ?_)
  match a with
  | ⟨0, _⟩ => show win0_0.index t (0 : Fin 2) * 5000 + 1 * p.val = r.val; rw [e00, hr]; omega
  | ⟨1, _⟩ => show win0_0.index t (1 : Fin 2) * 128 + 1 * k.val = k.val; rw [e01]; omega

/-- Entry (p, 0) of the degree window's block at point t is entry (5000 t + p, 0) of its array. -/
theorem read_degree_rows (t : Fin cfg0.N) (X : S50000x1.Idx → EReal) (p : Fin 5000) (r : Fin 50000)
    (hr : r.val = t.val * 5000 + p.val) :
    ((cfg0.win 1).blk t).view.read (Elt Ideal) X (ix2 p (0 : Fin 1)) = X (ix2 r (0 : Fin 1)) := by
  obtain ⟨-, -, e10, e11, -⟩ := block_indices t
  show X (((cfg0.win 1).blk t).view.emb (ix2 p (0 : Fin 1))) = X (ix2 r (0 : Fin 1))
  refine congrArg X (funext fun a => Fin.ext ?_)
  match a with
  | ⟨0, _⟩ => show win0_1.index t (0 : Fin 2) * 5000 + 1 * p.val = r.val; rw [e10, hr]; omega
  | ⟨1, _⟩ => show win0_1.index t (1 : Fin 2) * 1 + 1 * 0 = 0; rw [e11]

/-- The weight window's one block is its whole array. -/
theorem read_weights (t : Fin cfg0.N) (X : S128x128.Idx → EReal) :
    ((cfg0.win 2).blk t).view.read (Elt Ideal) X = X := by
  obtain ⟨-, -, -, -, e20, e21, -⟩ := block_indices t
  funext y
  show X (((cfg0.win 2).blk t).view.emb y) = X y
  refine congrArg X (funext fun a => Fin.ext ?_)
  match a with
  | ⟨0, _⟩ => show win0_2.index t (0 : Fin 2) * 128 + 1 * (y 0).val = (y 0).val; rw [e20]; omega
  | ⟨1, _⟩ => show win0_2.index t (1 : Fin 2) * 128 + 1 * (y 1).val = (y 1).val; rw [e21]; omega

/-- The bias window's one block is its whole array. -/
theorem read_bias (t : Fin cfg0.N) (X : S1x128.Idx → EReal) :
    ((cfg0.win 3).blk t).view.read (Elt Ideal) X = X := by
  obtain ⟨-, -, -, -, -, -, e30, e31, -⟩ := block_indices t
  funext y
  show X (((cfg0.win 3).blk t).view.emb y) = X y
  refine congrArg X (funext fun a => Fin.ext ?_)
  match a with
  | ⟨0, _⟩ => show win0_3.index t (0 : Fin 2) * 1 + 1 * (y 0).val = (y 0).val; rw [e30]; omega
  | ⟨1, _⟩ => show win0_3.index t (1 : Fin 2) * 128 + 1 * (y 1).val = (y 1).val; rw [e31]; omega

/-- ONE ENTRY OF ONE BLOCK.  If the loaded feature and degree blocks are rows T·5000 … of two arrays, and the loaded
    weights and bias row are two whole arrays, then the body's value at block entry y is the staged form of the four
    arrays at the array entry y sits at. -/
theorem entry_eq (A : SNodes.Idx → EReal) (Dc : SDegCol.Idx → EReal) (Wt : SWt.Idx → EReal) (Br : SBiasRow.Idx → EReal)
    (a : FVec Ideal S5000x128 .f32) (d : FVec Ideal S5000x1 .f32) (w : FVec Ideal S128x128 .f32) (b : FVec Ideal S1x128 .f32)
    (T : Nat) (y : S5000x128.Idx) (i : S50000x128.Idx)
    (hi0 : (i 0).val = T * 5000 + (y 0).val) (hi1 : (i 1).val = (y 1).val)
    (ha : ∀ (p : Fin 5000) (k : Fin 128) (r : Fin 50000), r.val = T * 5000 + p.val → a (ix2 p k) = A (ix2 r k))
    (hd : ∀ (p : Fin 5000) (r : Fin 50000), r.val = T * 5000 + p.val → d (ix2 p (0 : Fin 1)) = Dc (ix2 r (0 : Fin 1)))
    (hw : w = Wt) (hb : b = Br) :
    k0_pay1 (F := Ideal) d a w b y = stagedForm A Dc Wt Br i := by
  obtain ⟨p, q, rfl⟩ : ∃ (p : Fin 5000) (q : Fin 128), y = ix2 p q := ⟨y 0, y 1, eq_ix2 y⟩
  have hq : i 1 = q := Fin.ext hi1
  subst hw hb
  rw [Block.payload_apply]
  unfold stagedForm
  rw [hq]
  refine congrArg (· + b (ix2 (0 : Fin 1) q)) (Finset.sum_congr rfl fun k _ => ?_)
  rw [ha p k (i 0) hi0, hd p (i 0) hi0]

/-- WHAT POINT t WRITES BACK, against any function G of the result's index: if the body's value at each block entry is
    G at the array entry it sits at — row 5000 t + the entry's row, the entry's column — then what the point writes
    back is block t of G. -/
theorem flushed_of (c : Dev nD) (t : Fin cfg0.N) (G : Buf (Elt Ideal) ((c : Thread nD τ).loc main_v30))
    (hG : ∀ (y : S5000x128.Idx) (i : S50000x128.Idx), (i 0).val = t.val * 5000 + (y 0).val → (i 1).val = (y 1).val →
      k0_pay1 (F := Ideal) (iblk m c 1 t) (iblk m c 0 t) (iblk m c 2 t) (iblk m c 3 t) y = G i) :
    (dats m 0 c).flushed 4 t = ((cfg0.win 4).blk t).view.read (Elt Ideal) G := by
  rw [Value.flushed4 m c t]
  unfold out0_4
  rw [View.canon_unit_zero zero_offsets]
  simp only [View.ld_unit_zero (S := S5000x1) zero_offsets, View.ld_unit_zero (S := S5000x128) zero_offsets,
    View.ld_unit_zero (S := S128x128) zero_offsets, View.ld_unit_zero (S := S1x128) zero_offsets]
  generalize k0_pay1 (F := Ideal) (iblk m c 1 t) (iblk m c 0 t) (iblk m c 2 t) (iblk m c 3 t) = P at hG ⊢
  obtain ⟨-, -, -, -, -, -, -, -, e40, e41⟩ := block_indices t
  funext j
  show P j = G (((cfg0.win 4).blk t).view.emb j)
  refine hG j _ ?_ ?_
  · show win0_4.index t (0 : Fin 2) * 5000 + 1 * (j 0).val = t.val * 5000 + (j 0).val
    rw [e40]; omega
  · show win0_4.index t (1 : Fin 2) * 128 + 1 * (j 1).val = (j 1).val
    rw [e41]; omega

/-- WHAT POINT t WRITES BACK is block t of the staged form. -/
theorem flushed_eq (c : Dev nD) (t : Fin cfg0.N) :
    (dats m 0 c).flushed 4 t = ((cfg0.win 4).blk t).view.read (Elt Ideal) (result m c) :=
  flushed_of m c t (result m c) fun y i h0 h1 =>
    entry_eq (V m c main_v15) (V m c main_v29) (V m c main_v27) (V m c main_v28)
      (iblk m c 0 t) (iblk m c 1 t) (iblk m c 2 t) (iblk m c 3 t) t.val y i h0 h1
      (fun p k r hr => read_feature_rows t (V m c main_v15) p k r hr)
      (fun p r hr => read_degree_rows t (V m c main_v29) p r hr)
      (read_weights t (V m c main_v27)) (read_bias t (V m c main_v28))

/-- An index of the result is in point t's block iff each coordinate is in the block's range on its axis. -/
theorem mem_block (t : Fin cfg0.N) (i : S50000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v30).slice (win0_4.rect t)).set ↔ _
  rw [View.set_slice_whole, Rect.mem_set_unit]
  exact Iff.rfl

/-- Every entry of the result lies in the block of the point its row falls to: row r in block r / 5000. -/
theorem covered (i : S50000x128.Idx) :
    ∃ t : Fin cfg0.N, (cfg0.win 4).flush t = true ∧ i ∈ ((cfg0.win 4).blk t).view.set := by
  have hN : cfg0.N = 10 := N_0
  have hi0 : (i 0).val < 50000 := (i 0).isLt
  have hi1 : (i 1).val < 128 := (i 1).isLt
  obtain ⟨t, ht⟩ : ∃ t : Fin cfg0.N, t.val = (i 0).val / 5000 := ⟨⟨(i 0).val / 5000, by rw [hN]; omega⟩, rfl⟩
  obtain ⟨-, -, -, -, -, -, -, -, e40, e41⟩ := block_indices t
  refine ⟨t, flush0_4 t, ?_⟩
  rw [mem_block]
  intro a
  match a with
  | ⟨0, _⟩ =>
    show win0_4.index t (0 : Fin 2) * 5000 ≤ (i 0).val ∧ (i 0).val < win0_4.index t (0 : Fin 2) * 5000 + 5000
    rw [e40, ht]; omega
  | ⟨1, _⟩ =>
    show win0_4.index t (1 : Fin 2) * 128 ≤ (i 1).val ∧ (i 1).val < win0_4.index t (1 : Fin 2) * 128 + 128
    rw [e41]; omega

/-- THE RESULT ARRAY after the run is the staged form of the arrays the region finds. -/
theorem final (c : Dev nD) : (dats m 0 c).arrAt 4 cfg0.N = result m c :=
  (dats m 0 c).arrAt_eq_of_cover 4 (result m c) (fun t _ => flushed_eq m c t) covered

/-- The run, read: the result array at the staged form, the arguments unchanged. -/
theorem run : θ_run defs (onTc (τ := τ) (main (F := Ideal))) ⟨m, fun _ => 0, ρ⟩ fun r => ∀ c : Dev nD,
      r.2.mem ((c : Thread nD τ).loc main_v30) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.KernelIdeal.Whole

end
-- ==== Proof.Bridge.lean ====
/-
  The two programs' intermediate arrays are the same functions of the arguments, and the kernel's result is the
  quotient form of them.

  Both programs compute the aggregated features, the degrees and the transposed weights by the same host
  operations on the same arguments; the kernel's program reads the features through a half-precision copy, and a
  change of float format is the identity on the extended reals, so its aggregated features are the reference's.
  The count the precondition makes is the count both programs make, so under the precondition every degree is a
  positive integer read as a real number, in particular not zero; and off a zero degree the kernel's product with
  the reciprocal is the reference's quotient.
-/
import proofs.«179608_j54176717472164_2_alg».proof.Proof.HostArrays
import proofs.«179608_j54176717472164_2_alg».proof.Proof.PositiveDegree
import proofs.«179608_j54176717472164_2_alg».proof.Proof.RefValue
import proofs.«179608_j54176717472164_2_alg».proof.Proof.KernelValue
import proofs.«179608_j54176717472164_2_alg».proof.Proof.MeanLinear

noncomputable section

namespace Cert.Proof.Bridge

open Idealize.ShloMosaic Idealize.ShloMosaic.TcCoe Idealize.SL.Sem Idealize.ShloMosaic.ValueIdx Cert.MeanLinear

/-- The kernel program's aggregated features are the reference's: the round trip through half precision is the
    identity. -/
theorem aggregated_eq (x0 : SNodes.Idx → EReal) (x1 : IVec ⟨2, ![2, 800000]⟩ 32) :
    Cert.KernelIdeal.HostArrays.aggregated x0 x1 = Cert.ReferenceIdeal.Read.val_main_v13 (F := Ideal) x0 x1 := rfl

/-- The three counts — the kernel program's, the reference's, the precondition's — are one. -/
theorem counts_eq (x1 : IVec ⟨2, ![2, 800000]⟩ 32) :
    Cert.ReferenceIdeal.Read.val_main_v23 (F := Ideal) x1 = Cert.Pre_finite_inputs.Degree.counts x1 := rfl

theorem degrees_eq (x1 : IVec ⟨2, ![2, 800000]⟩ 32) :
    Cert.KernelIdeal.HostArrays.degrees x1 = Cert.ReferenceIdeal.Read.val_main_v24 (F := Ideal) x1 := rfl

/-- The transposed weights are the same array in both programs. -/
theorem weights_eq (x2 : SWt.Idx → EReal) :
    transpose Cert.KernelIdeal.S128x128 [1, 0] x2 Cert.KernelIdeal.Facts₀.transposes_S128x128_S128x128_1_0
      = Cert.ReferenceIdeal.Read.val_main_v28 (F := Ideal) x2 := rfl

/-- Under the precondition no degree is zero: each is a positive integer read as a real number. -/
theorem degree_ne_zero (x0 : SNodes.Idx → EReal) (x1 : IVec ⟨2, ![2, 800000]⟩ 32) (x2 : SWt.Idx → EReal) (x3 : SBias.Idx → EReal)
    (h : Cert.Pre_finite_inputs.fn (F := Ideal) x0 x1 x2 x3 = fun _ => 1#1) (r : SDeg.Idx) :
    Cert.ReferenceIdeal.Read.val_main_v24 (F := Ideal) x1 r ≠ 0 := by
  have hp := Cert.Pre_finite_inputs.Degree.counts_pos x0 x1 x2 x3 h r
  have e : Cert.ReferenceIdeal.Read.val_main_v24 (F := Ideal) x1 r
      = (((Cert.Pre_finite_inputs.Degree.counts x1 r).toInt : ℝ) : EReal) := rfl
  rw [e]
  exact EReal.coe_ne_zero.mpr (Int.cast_ne_zero.mpr (ne_of_gt hp))

/-- The staged form of equal arrays is equal. -/
theorem stagedForm_congr {A A' : SNodes.Idx → EReal} {Dc Dc' : SDegCol.Idx → EReal} {Wt Wt' : SWt.Idx → EReal}
    {Br Br' : SBiasRow.Idx → EReal} (hA : A = A') (hD : Dc = Dc') (hW : Wt = Wt') (hB : Br = Br') :
    stagedForm A Dc Wt Br = stagedForm A' Dc' Wt' Br' := by
  subst hA hD hW hB; rfl

open Cert.KernelIdeal Cert.KernelIdeal.Gen in
/-- THE KERNEL'S RESULT under the precondition is the quotient form of the reference's own intermediate arrays of
    the kernel program's arguments. -/
theorem kernel_result_eq (m : (ℓ : Loc nD τ sig) → Buf (Elt Ideal) ℓ) (c : Dev nD)
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) = fun _ => 1#1) :
    Cert.KernelIdeal.Whole.result m c
      = quotientForm (Cert.ReferenceIdeal.Read.val_main_v13 (F := Ideal) (m ((c : Thread nD τ).loc main_arg0)) (m ((c : Thread nD τ).loc main_arg1)))
          (Cert.ReferenceIdeal.Read.val_main_v24 (F := Ideal) (m ((c : Thread nD τ).loc main_arg1)))
          (Cert.ReferenceIdeal.Read.val_main_v28 (F := Ideal) (m ((c : Thread nD τ).loc main_arg2)))
          (m ((c : Thread nD τ).loc main_arg3)) := by
  unfold Cert.KernelIdeal.Whole.result
  refine (stagedForm_congr (HostArrays.V_features m c) (HostArrays.V_degrees m c) (HostArrays.V_weights m c)
    (HostArrays.V_bias m c)).trans ?_
  refine (stagedForm_reshaped _ _ _ _ _ _).trans ?_
  rw [aggregated_eq, degrees_eq, weights_eq]
  exact reciprocalForm_eq_quotientForm _ _ _ _ (degree_ne_zero _ _ _ _ hpre)

end Cert.Proof.Bridge

end
-- ==== Proof.lean ====
/-
  The five claims of this certificate, for a graph layer that averages each node's incoming neighbour features and
  applies a linear map.

  Both programs first aggregate, on the host, the feature rows of every edge's source node into the edge's
  destination row, and count the edges into each node.  The reference then divides every aggregated feature by its
  node's count, multiplies by the transposed weights and adds the bias.  The kernel does the last three steps on
  row blocks of 5000 nodes, with the quotient replaced by a product with the reciprocal of the count taken once per
  node.  On the extended reals the two agree wherever the count is not zero, which the precondition grants: every
  node has an incoming edge.  (At a node without one the reference divides zero by zero.)  The changes of float
  format in the kernel's program are the identity there, and its matrix product into zeros is the reference's.

  The frames of the two kernel programs are the generated ones; the reference's is its generated run with the
  result dropped; the idealization rewrote nothing.
-/
import proofs.«179608_j54176717472164_2_alg».proof.Defs
import proofs.«179608_j54176717472164_2_alg».proof.Proof.Gen.Kernel
import proofs.«179608_j54176717472164_2_alg».proof.Proof.Gen.Kernel.Skeleton
import proofs.«179608_j54176717472164_2_alg».proof.Proof.Gen.Kernel.Launch
import proofs.«179608_j54176717472164_2_alg».proof.Proof.Gen.Kernel.Points
import proofs.«179608_j54176717472164_2_alg».proof.Proof.Gen.Kernel.Frame
import proofs.«179608_j54176717472164_2_alg».proof.Proof.Gen.KernelIdeal
import proofs.«179608_j54176717472164_2_alg».proof.Proof.Gen.KernelIdeal.Skeleton
import proofs.«179608_j54176717472164_2_alg».proof.Proof.Gen.KernelIdeal.Launch
import proofs.«179608_j54176717472164_2_alg».proof.Proof.Gen.KernelIdeal.Points
import proofs.«179608_j54176717472164_2_alg».proof.Proof.Gen.KernelIdeal.Frame
import proofs.«179608_j54176717472164_2_alg».proof.Proof.Gen.ReferenceIdeal
import proofs.«179608_j54176717472164_2_alg».proof.Proof.Gen.Pre_finite_inputs
import proofs.«179608_j54176717472164_2_alg».proof.Proof.Gen.KernelIdeal.Value
import proofs.«179608_j54176717472164_2_alg».proof.Proof.Gen.ReferenceIdeal.Run
import proofs.«179608_j54176717472164_2_alg».proof.Proof.Gen.ReferenceIdeal.Read
import proofs.«179608_j54176717472164_2_alg».proof.Proof.Bridge
import Idealize.ShloMosaic.Adequacy
import Idealize.ShloMosaic.Init

noncomputable section

namespace Cert.Proof

open Idealize.ShloMosaic Idealize.ShloMosaic.TcCoe Idealize.SL.Sem Cert.MeanLinear

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the quotient form of the reference's aggregated features, degrees and transposed weights
    of the arguments, and of the bias: the kernel's by its blocks and the law between the reciprocal and the
    quotient under the precondition, the reference's by its run read at an index. -/
theorem algebraic : Cert.algebraic_KernelIdeal_ReferenceIdeal := by
  intro m ρ m' ρ' hpre hagree
  refine ⟨fun c => quotientForm
      (Cert.ReferenceIdeal.Read.val_main_v13 (F := Ideal) (m ((c : Thread Cert.KernelIdeal.nD Cert.KernelIdeal.τ).loc Cert.KernelIdeal.main_arg0))
        (m ((c : Thread Cert.KernelIdeal.nD Cert.KernelIdeal.τ).loc Cert.KernelIdeal.main_arg1)))
      (Cert.ReferenceIdeal.Read.val_main_v24 (F := Ideal) (m ((c : Thread Cert.KernelIdeal.nD Cert.KernelIdeal.τ).loc Cert.KernelIdeal.main_arg1)))
      (Cert.ReferenceIdeal.Read.val_main_v28 (F := Ideal) (m ((c : Thread Cert.KernelIdeal.nD Cert.KernelIdeal.τ).loc Cert.KernelIdeal.main_arg2)))
      (m ((c : Thread Cert.KernelIdeal.nD Cert.KernelIdeal.τ).loc Cert.KernelIdeal.main_arg3)), ?_, ?_⟩
  · exact (θ_run Cert.KernelIdeal.defs _ _).mono
      (fun _ h c => ⟨(h c).1.trans (Bridge.kernel_result_eq m c (hpre c)), (h c).2⟩)
      (Cert.KernelIdeal.Whole.run m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v32_eq, Cert.ReferenceIdeal.RefValue.result_eq,
      (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
